-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4000x400 : Shape := ⟨4, ![4, 16, 4000, 400]⟩
abbrev S_ : Shape := ⟨0, ![]⟩

class Facts : Prop where
  bcast_S_S4x16x4000x400 : S_.BroadcastsInDim S4x16x4000x400 (![] : Fin 0 → Fin S4x16x4000x400.rank)
  reducesTo_S4x16x4000x400_S_d0_1_2_3 : S4x16x4000x400.ReducesTo [0, 1, 2, 3] S_
  h_S_ : 0 < S_.numel

variable [Facts]

def fn {F : FTy → Type} [FloatOps F] (main_arg0 : FVec F S4x16x4000x400 .f32) (main_arg1 : FVec F S4x16x4000x400 .f32) : IVec S_ 1 :=
  let main_v0 : FVec F S4x16x4000x400 .f32 := Host.absf main_arg0
  let main_cst : FVec F S_ .f32 := constant S_ .f32 0x7F800000#32
  let main_v1 : FVec F S4x16x4000x400 .f32 := broadcastInDim S4x16x4000x400 ![] bcast_S_S4x16x4000x400 main_cst
  let main_v2 : IVec S4x16x4000x400 1 := cmpf .olt main_v0 main_v1
  let main_c : IVec S_ 1 := constantI S_ 1 1#1
  let main_v3 : IVec S_ 1 := (fun x v => Host.reduce IntOp.andi x v reducesTo_S4x16x4000x400_S_d0_1_2_3 h_S_) main_v2 main_c
  let main_v4 : FVec F S4x16x4000x400 .f32 := Host.absf main_arg1
  let main_cst_0 : FVec F S_ .f32 := constant S_ .f32 0x7F800000#32
  let main_v5 : FVec F S4x16x4000x400 .f32 := broadcastInDim S4x16x4000x400 ![] bcast_S_S4x16x4000x400 main_cst_0
  let main_v6 : IVec S4x16x4000x400 1 := cmpf .olt main_v4 main_v5
  let main_c_1 : IVec S_ 1 := constantI S_ 1 1#1
  let main_v7 : IVec S_ 1 := (fun x v => Host.reduce IntOp.andi x v reducesTo_S4x16x4000x400_S_d0_1_2_3 h_S_) main_v6 main_c_1
  let main_v8 : IVec S_ 1 := andi main_v3 main_v7
  main_v8
-- ==== Kernel.lean ====
abbrev S4x16x4000x400 : Shape := ⟨4, ![4, 16, 4000, 400]⟩
abbrev S64x1600000 : Shape := ⟨2, ![64, 1600000]⟩
abbrev S64x5 : Shape := ⟨2, ![64, 5]⟩
abbrev S8x160000 : Shape := ⟨2, ![8, 160000]⟩
abbrev S8x5 : Shape := ⟨2, ![8, 5]⟩
abbrev S8 : Shape := ⟨1, ![8]⟩
abbrev S8x1 : Shape := ⟨2, ![8, 1]⟩
abbrev S64x1 : Shape := ⟨2, ![64, 1]⟩
abbrev S64 : Shape := ⟨1, ![64]⟩
abbrev S_ : Shape := ⟨0, ![]⟩

abbrev nBuf : Space → Nat
  | .hbm => 43
  | .vmem => 6
  | .smem => 0
  | _ => 0

abbrev bufTy : (tb : Table) → Fin (tcTables nBuf tb) → BufTy
  | .hbm, ⟨0, _⟩ => ⟨S4x16x4000x400, .f32⟩
  | .hbm, ⟨1, _⟩ => ⟨S4x16x4000x400, .f32⟩
  | .hbm, ⟨2, _⟩ => ⟨S64x1600000, .f32⟩
  | .hbm, ⟨3, _⟩ => ⟨S64x1600000, .f32⟩
  | .hbm, ⟨4, _⟩ => ⟨S64x5, .f32⟩
  | .hbm, ⟨5, _⟩ => ⟨S64x1, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S8x160000, .f32⟩
  | .local _ .vmem, ⟨1, _⟩ => ⟨S8x160000, .f32⟩
  | .local _ .vmem, ⟨2, _⟩ => ⟨S8x160000, .f32⟩
  | .local _ .vmem, ⟨3, _⟩ => ⟨S8x160000, .f32⟩
  | .local _ .vmem, ⟨4, _⟩ => ⟨S8x5, .f32⟩
  | .local _ .vmem, ⟨5, _⟩ => ⟨S8x5, .f32⟩
  | _, _ => ⟨S4x16x4000x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x16x4000x400_S64x1600000 : S4x16x4000x400.ShapeCasts S64x1600000
  inb_S8x5_S8x5_0_0 : ∀ a, (![0, 0] : Fin 2 → Nat) a + S8x5.size a ≤ S8x5.size a
  h_S8x5 : 0 < S8x5.numel
  inb_S8x160000_S8x160000_0_0 : ∀ a, (![0, 0] : Fin 2 → Nat) a + S8x160000.size a ≤ S8x160000.size a
  h_S8x160000 : 0 < S8x160000.numel
  shapeCasts_S8x160000_S8x160000 : S8x160000.ShapeCasts S8x160000
  reduces_S8x160000_S8 : S8x160000.Reduces [1] S8
  shapeCasts_S8_S8x1 : S8.ShapeCasts S8x1
  concatenates_S8x1_S8x1_S8x1_S8x1_S8x1_S8x5_d1 : Shape.Concatenates [S8x1, S8x1, S8x1, S8x1, S8x1] S8x5 1
  shapeCasts_S8x5_S8x5 : S8x5.ShapeCasts S8x5
  slices_S64x5_S64x1_0_0 : S64x5.Slices ![0, 0] S64x1
  shapeCasts_S64x1_S64 : S64x1.ShapeCasts S64
  slices_S64x5_S64x1_0_1 : S64x5.Slices ![0, 1] S64x1
  slices_S64x5_S64x1_0_2 : S64x5.Slices ![0, 2] S64x1
  slices_S64x5_S64x1_0_3 : S64x5.Slices ![0, 3] S64x1
  slices_S64x5_S64x1_0_4 : S64x5.Slices ![0, 4] S64x1
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x160000.size a ≤ S64x1600000.size a
  hwx0_0 : ∀ i : grid0.Coords, EltTy.bits .f32 = 32 ∨ (Rect.block (s := S64x1600000) S8x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x160000.size a ≤ S64x1600000.size a
  hwx0_1 : ∀ i : grid0.Coords, EltTy.bits .f32 = 32 ∨ (Rect.block (s := S64x1600000) S8x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5.size a ≤ S64x5.size a
  hwx0_2 : ∀ i : grid0.Coords, EltTy.bits .f32 = 32 ∨ (Rect.block (s := S64x5) S8x5.size (cc0_transform_2 i) (hinb0_2 i)).WholeWords (EltTy.packing .f32)

variable [Facts₀]

abbrev win0_0 : Pipeline.Window sig grid0 :=
  Pipeline.Window.ofSpec (Memref.whole main_v0) S8x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16x4000x400 : Shape := ⟨4, ![4, 16, 4000, 400]⟩
abbrev S_ : Shape := ⟨0, ![]⟩
abbrev S4x16 : Shape := ⟨2, ![4, 16]⟩
abbrev S4x16x1x1 : Shape := ⟨4, ![4, 16, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x16x4000x400, .f32⟩
  | .hbm, ⟨1, _⟩ => ⟨S4x16x4000x400, .f32⟩
  | .hbm, ⟨2, _⟩ => ⟨S_, .f32⟩
  | .hbm, ⟨3, _⟩ => ⟨S4x16, .f32⟩
  | .hbm, ⟨4, _⟩ => ⟨S4x16x1x1, .f32⟩
  | .hbm, ⟨5, _⟩ => ⟨S_, .f32⟩
  | .hbm, ⟨6, _⟩ => ⟨S4x16x1x1, .f32⟩
  | .hbm, ⟨7, _⟩ => ⟨S4x16x1x1, .f32⟩
  | .hbm, ⟨8, _⟩ => ⟨S_, .f32⟩
  | .hbm, ⟨9, _⟩ => ⟨S4x16, .f32⟩
  | .hbm, ⟨10, _⟩ => ⟨S4x16x1x1, .f32⟩
  | .hbm, ⟨11, _⟩ => ⟨S_, .f32⟩
  | .hbm, ⟨12, _⟩ => ⟨S4x16x1x1, .f32⟩
  | .hbm, ⟨13, _⟩ => ⟨S4x16x1x1, .f32⟩
  | .hbm, ⟨14, _⟩ => ⟨S4x16x4000x400, .f32⟩
  | .hbm, ⟨15, _⟩ => ⟨S4x16x4000x400, .f32⟩
  | .hbm, ⟨16, _⟩ => ⟨S4x16x4000x400, .f32⟩
  | .hbm, ⟨17, _⟩ => ⟨S4x16x4000x400, .f32⟩
  | .hbm, ⟨18, _⟩ => ⟨S4x16x4000x400, .f32⟩
  | .hbm, ⟨19, _⟩ => ⟨S_, .f32⟩
  | .hbm, ⟨20, _⟩ => ⟨S4x16, .f32⟩
  | .hbm, ⟨21, _⟩ => ⟨S4x16x4000x400, .f32⟩
  | .hbm, ⟨22, _⟩ => ⟨S_, .f32⟩
  | .hbm, ⟨23, _⟩ => ⟨S4x16, .f32⟩
  | .hbm, ⟨24, _⟩ => ⟨S4x16x4000x400, .f32⟩
  | .hbm, ⟨25, _⟩ => ⟨S_, .f32⟩
  | .hbm, ⟨26, _⟩ => ⟨S4x16, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S4x16, .f32⟩
  | .hbm, ⟨31, _⟩ => ⟨S_, .f32⟩
  | .hbm, ⟨32, _⟩ => ⟨S_, .f32⟩
  | .hbm, ⟨33, _⟩ => ⟨S_, .f32⟩
  | _, _ => ⟨S4x16x4000x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  reducesTo_S4x16x4000x400_S4x16_d2_3 : S4x16x4000x400.ReducesTo [2, 3] S4x16
  h_S_ : 0 < S_.numel
  bcast_S4x16_S4x16x1x1_0_1 : S4x16.BroadcastsInDim S4x16x1x1 (![0, 1] : Fin 2 → Fin S4x16x1x1.rank)
  bcast_S_S4x16x1x1 : S_.BroadcastsInDim S4x16x1x1 (![] : Fin 0 → Fin S4x16x1x1.rank)
  bcast_S4x16x1x1_S4x16x4000x400_0_1_2_3 : S4x16x1x1.BroadcastsInDim S4x16x4000x400 (![0, 1, 2, 3] : Fin 4 → Fin S4x16x4000x400.rank)
  reducesTo_S4x16_S_d0_1 : S4x16.ReducesTo [0, 1] S_

variable [Facts₀]

class Facts : Prop extends Facts₀ where

variable [Facts]
-- ==== Proof.BodyValue.lean ====
/-
  What one run of the kernel body leaves in the output block.

  The body adds, to the 8 × 5 block of running statistics, the five row sums of its two 8 × 160000 input blocks;
  at the first column step of a row block it first overwrites the running block with zeros.  So the block after the
  body is the body's one arithmetic payload applied to the two input blocks and to the running block — the zero block
  at a first step, what the step before left otherwise.
-/
import proofs.«119155_j17222818857434_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A later column step: the running block `xo` plus the row sums of the input blocks `x0`, `x1`. -/
theorem out_later (c : Dev nD) (i : grid0.Coords) (a2 : Memref sig .tc .vmem S8x160000 .f32) (h2 : a2.IsWhole)
    (a3 : Memref sig .tc .vmem S8x160000 .f32) (h3 : a3.IsWhole) (a4 : Memref sig .tc .vmem S8x5 .f32) (h4 : a4.IsWhole)
    (hc : ¬cond0_0 i) (x0 x1 : Vec F S8x160000 .f32) (xo : Vec F S8x5 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S8x160000) hz,
    View.ld_unit_zero (S := S8x5) hz]

/-- The zero block a first column step stores before accumulating. -/
abbrev zero : Vec F S8x5 .f32 := broadcast S8x5 (Scalar.ofBits .f32 0x00000000#32)

/-- A first column step: the zero block plus the row sums of the input blocks. -/
theorem out_first (c : Dev nD) (i : grid0.Coords) (a2 : Memref sig .tc .vmem S8x160000 .f32) (h2 : a2.IsWhole)
    (a3 : Memref sig .tc .vmem S8x160000 .f32) (h3 : a3.IsWhole) (a4 : Memref sig .tc .vmem S8x5 .f32) (h4 : a4.IsWhole)
    (hc : cond0_0 i) (x0 x1 : Vec F S8x160000 .f32) :
    out0_A_2 c i a2 h2 a3 h3 a4 h4 hc x0 x1 = k0_pay2 x0 x1 zero := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x5) hz, View.readCov_unit_zero (S := S8x5) _ hz]
  simp only [View.readAt_eq_ld, h2.read_unread, h3.read_unread, View.ld_unit_zero (S := S8x160000) hz]
  rfl

end Cert.KernelIdeal.Body

end
-- ==== Proof.PayloadAt.lean ====
/-
  The body's arithmetic read at one entry of the 8 × 5 block, over the extended reals.

  Column `q` of the block accumulates one statistic of row `p` of the two input blocks: the sum over the 160000
  lanes of `u`, `v`, `u·v`, `u·u`, `v·v` for `q = 0 … 4`, where `u`, `v` are the two inputs' entries at the lane.
-/
import proofs.«119155_j17222818857434_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Misfit

/-- The statistic column `q` accumulates, of one sample pair. -/
def colf (q : Fin 5) (u v : EReal) : EReal :=
  match q with
  | 0 => u
  | 1 => v
  | 2 => u * v
  | 3 => u * u
  | 4 => v * v

end Cert.Misfit

namespace Cert.KernelIdeal.Body

open Cert.KernelIdeal Cert.KernelIdeal.Gen Cert.Misfit

/-- A row sum kept as a column: entry `(p, 0)` of the `[8] → [8, 1]` cast of the lane sum of `w` is the sum of row `p`. -/
theorem rowsum_col (w : FVec Ideal S8x160000 .f32) (p : Fin 8) (z : Fin 1) :
    shapeCast S8x1 (multiReduction .add [1] S8 w 0x00000000#32 Facts₀.reduces_S8x160000_S8 (.inl rfl) rfl) Facts₀.shapeCasts_S8_S8x1 (ix2 p z)
      = ∑ l : Fin 160000, w (ix2 p l) := by
  refine (shapeCast_apply _ Facts₀.shapeCasts_S8_S8x1 (ix2 p z) (ix1 p) ?_).trans ?_
  · rw [Shape.rowMajor_val_two, Shape.rowMajor_val_one]
    show p.val = p.val * 1 + z.val
    omega
  · refine (Ideal.multiReduction_add_single w _ Facts₀.reduces_S8x160000_S8 (.inl rfl) rfl (ix1 p)).trans ?_
    refine Finset.sum_congr rfl fun l _ => congrArg w ?_
    funext a
    match a with
    | ⟨0, _⟩ => rfl
    | ⟨1, _⟩ => rfl

/-- Off the lane axis an entry `(p, 0)` of a column and the entry `(p, q)` of the joined block have the same coordinate. -/
theorem join5_off (p : Fin 8) (q : Fin 5) : ∀ b : Fin S8x1.rank, b.cast (rfl : S8x1.rank = S8x5.rank) ≠ (1 : Fin 2) →
    ((ix2 p (0 : Fin 1) : S8x1.Idx) b).val = ((ix2 p q : S8x5.Idx) (b.cast rfl)).val := fun b hb => by
  match b with
  | ⟨0, _⟩ => rfl
  | ⟨1, _⟩ => exact absurd rfl hb

/-- Five `[8, 1]` columns joined along the lane axis, read in lane 0: column 0 at the row. -/
theorem join5_0 {α : Type} (c0 c1 c2 c3 c4 : S8x1.Idx → α) (p : Fin 8) :
    concatenate S8x5 1 [⟨S8x1, c0⟩, ⟨S8x1, c1⟩, ⟨S8x1, c2⟩, ⟨S8x1, c3⟩, ⟨S8x1, c4⟩]
        Facts₀.concatenates_S8x1_S8x1_S8x1_S8x1_S8x1_S8x5_d1 (ix2 p (0 : Fin 5))
      = c0 (ix2 p (0 : Fin 1)) := by
  refine concatenate_apply_piece (1 : Fin 2) _ _ (ix2 p (0 : Fin 5)) 0 ?_ S8x1 c0 ?_ rfl 0 ?_ (ix2 p 0) (join5_off p 0) ?_
  · simp
  · rfl
  · rfl
  · rfl

/-- Five `[8, 1]` columns joined along the lane axis, read in lane 1: column 1 at the row. -/
theorem join5_1 {α : Type} (c0 c1 c2 c3 c4 : S8x1.Idx → α) (p : Fin 8) :
    concatenate S8x5 1 [⟨S8x1, c0⟩, ⟨S8x1, c1⟩, ⟨S8x1, c2⟩, ⟨S8x1, c3⟩, ⟨S8x1, c4⟩]
        Facts₀.concatenates_S8x1_S8x1_S8x1_S8x1_S8x1_S8x5_d1 (ix2 p (1 : Fin 5))
      = c1 (ix2 p (0 : Fin 1)) := by
  refine concatenate_apply_piece (1 : Fin 2) _ _ (ix2 p (1 : Fin 5)) 1 ?_ S8x1 c1 ?_ rfl 1 ?_ (ix2 p 0) (join5_off p 1) ?_
  · simp
  · rfl
  · rfl
  · rfl

/-- Five `[8, 1]` columns joined along the lane axis, read in lane 2: column 2 at the row. -/
theorem join5_2 {α : Type} (c0 c1 c2 c3 c4 : S8x1.Idx → α) (p : Fin 8) :
    concatenate S8x5 1 [⟨S8x1, c0⟩, ⟨S8x1, c1⟩, ⟨S8x1, c2⟩, ⟨S8x1, c3⟩, ⟨S8x1, c4⟩]
        Facts₀.concatenates_S8x1_S8x1_S8x1_S8x1_S8x1_S8x5_d1 (ix2 p (2 : Fin 5))
      = c2 (ix2 p (0 : Fin 1)) := by
  refine concatenate_apply_piece (1 : Fin 2) _ _ (ix2 p (2 : Fin 5)) 2 ?_ S8x1 c2 ?_ rfl 2 ?_ (ix2 p 0) (join5_off p 2) ?_
  · simp
  · rfl
  · rfl
  · rfl

/-- Five `[8, 1]` columns joined along the lane axis, read in lane 3: column 3 at the row. -/
theorem join5_3 {α : Type} (c0 c1 c2 c3 c4 : S8x1.Idx → α) (p : Fin 8) :
    concatenate S8x5 1 [⟨S8x1, c0⟩, ⟨S8x1, c1⟩, ⟨S8x1, c2⟩, ⟨S8x1, c3⟩, ⟨S8x1, c4⟩]
        Facts₀.concatenates_S8x1_S8x1_S8x1_S8x1_S8x1_S8x5_d1 (ix2 p (3 : Fin 5))
      = c3 (ix2 p (0 : Fin 1)) := by
  refine concatenate_apply_piece (1 : Fin 2) _ _ (ix2 p (3 : Fin 5)) 3 ?_ S8x1 c3 ?_ rfl 3 ?_ (ix2 p 0) (join5_off p 3) ?_
  · simp
  · rfl
  · rfl
  · rfl

/-- Five `[8, 1]` columns joined along the lane axis, read in lane 4: column 4 at the row. -/
theorem join5_4 {α : Type} (c0 c1 c2 c3 c4 : S8x1.Idx → α) (p : Fin 8) :
    concatenate S8x5 1 [⟨S8x1, c0⟩, ⟨S8x1, c1⟩, ⟨S8x1, c2⟩, ⟨S8x1, c3⟩, ⟨S8x1, c4⟩]
        Facts₀.concatenates_S8x1_S8x1_S8x1_S8x1_S8x1_S8x5_d1 (ix2 p (4 : Fin 5))
      = c4 (ix2 p (0 : Fin 1)) := by
  refine concatenate_apply_piece (1 : Fin 2) _ _ (ix2 p (4 : Fin 5)) 4 ?_ S8x1 c4 ?_ rfl 4 ?_ (ix2 p 0) (join5_off p 4) ?_
  · simp
  · rfl
  · rfl
  · rfl

/-- Lane 0 of the payload: the running value plus the row's lane sum of `x0`. -/
theorem pay_0 (x0 x1 : Vec Ideal S8x160000 .f32) (acc : Vec Ideal S8x5 .f32) (p : Fin 8) :
    k0_pay2 (F := Ideal) x0 x1 acc (ix2 p (0 : Fin 5))
      = acc (ix2 p (0 : Fin 5)) + ∑ l : Fin 160000, colf 0 (x0 (ix2 p l)) (x1 (ix2 p l)) := by
  unfold k0_pay2
  simp only [shapeCast_self]
  refine congrArg (acc (ix2 p (0 : Fin 5)) + ·) ?_
  refine (join5_0 _ _ _ _ _ p).trans ?_
  refine (rowsum_col _ p 0).trans ?_
  refine Finset.sum_congr rfl fun l _ => ?_
  rw [shapeCast_self]
  rfl

/-- Lane 1 of the payload: the running value plus the row's lane sum of `x1`. -/
theorem pay_1 (x0 x1 : Vec Ideal S8x160000 .f32) (acc : Vec Ideal S8x5 .f32) (p : Fin 8) :
    k0_pay2 (F := Ideal) x0 x1 acc (ix2 p (1 : Fin 5))
      = acc (ix2 p (1 : Fin 5)) + ∑ l : Fin 160000, colf 1 (x0 (ix2 p l)) (x1 (ix2 p l)) := by
  unfold k0_pay2
  simp only [shapeCast_self]
  refine congrArg (acc (ix2 p (1 : Fin 5)) + ·) ?_
  refine (join5_1 _ _ _ _ _ p).trans ?_
  refine (rowsum_col _ p 0).trans ?_
  refine Finset.sum_congr rfl fun l _ => ?_
  rw [shapeCast_self]
  rfl

/-- Lane 2 of the payload: the running value plus the row's lane sum of `x0 * x1`. -/
theorem pay_2 (x0 x1 : Vec Ideal S8x160000 .f32) (acc : Vec Ideal S8x5 .f32) (p : Fin 8) :
    k0_pay2 (F := Ideal) x0 x1 acc (ix2 p (2 : Fin 5))
      = acc (ix2 p (2 : Fin 5)) + ∑ l : Fin 160000, colf 2 (x0 (ix2 p l)) (x1 (ix2 p l)) := by
  unfold k0_pay2
  simp only [shapeCast_self]
  refine congrArg (acc (ix2 p (2 : Fin 5)) + ·) ?_
  refine (join5_2 _ _ _ _ _ p).trans ?_
  refine (rowsum_col _ p 0).trans ?_
  refine Finset.sum_congr rfl fun l _ => ?_
  rw [mulf_apply, shapeCast_self, shapeCast_self]
  rfl

/-- Lane 3 of the payload: the running value plus the row's lane sum of `x0 * x0`. -/
theorem pay_3 (x0 x1 : Vec Ideal S8x160000 .f32) (acc : Vec Ideal S8x5 .f32) (p : Fin 8) :
    k0_pay2 (F := Ideal) x0 x1 acc (ix2 p (3 : Fin 5))
      = acc (ix2 p (3 : Fin 5)) + ∑ l : Fin 160000, colf 3 (x0 (ix2 p l)) (x1 (ix2 p l)) := by
  unfold k0_pay2
  simp only [shapeCast_self]
  refine congrArg (acc (ix2 p (3 : Fin 5)) + ·) ?_
  refine (join5_3 _ _ _ _ _ p).trans ?_
  refine (rowsum_col _ p 0).trans ?_
  refine Finset.sum_congr rfl fun l _ => ?_
  rw [mulf_apply, shapeCast_self]
  rfl

/-- Lane 4 of the payload: the running value plus the row's lane sum of `x1 * x1`. -/
theorem pay_4 (x0 x1 : Vec Ideal S8x160000 .f32) (acc : Vec Ideal S8x5 .f32) (p : Fin 8) :
    k0_pay2 (F := Ideal) x0 x1 acc (ix2 p (4 : Fin 5))
      = acc (ix2 p (4 : Fin 5)) + ∑ l : Fin 160000, colf 4 (x0 (ix2 p l)) (x1 (ix2 p l)) := by
  unfold k0_pay2
  simp only [shapeCast_self]
  refine congrArg (acc (ix2 p (4 : Fin 5)) + ·) ?_
  refine (join5_4 _ _ _ _ _ p).trans ?_
  refine (rowsum_col _ p 0).trans ?_
  refine Finset.sum_congr rfl fun l _ => ?_
  rw [mulf_apply, shapeCast_self]
  rfl

/-- THE PAYLOAD AT AN ENTRY: the running value there plus the lane sum of column `q`'s statistic over row `p`. -/
theorem pay_apply (x0 x1 : Vec Ideal S8x160000 .f32) (acc : Vec Ideal S8x5 .f32) (p : Fin 8) (q : Fin 5) :
    k0_pay2 (F := Ideal) x0 x1 acc (ix2 p q)
      = acc (ix2 p q) + ∑ l : Fin 160000, colf q (x0 (ix2 p l)) (x1 (ix2 p l)) := by
  match q with
  | ⟨0, _⟩ => exact pay_0 x0 x1 acc p
  | ⟨1, _⟩ => exact pay_1 x0 x1 acc p
  | ⟨2, _⟩ => exact pay_2 x0 x1 acc p
  | ⟨3, _⟩ => exact pay_3 x0 x1 acc p
  | ⟨4, _⟩ => exact pay_4 x0 x1 acc p

end Cert.KernelIdeal.Body

end
-- ==== Proof.Accumulate.lean ====
/-
  The running block of statistics after each grid point, in closed form.

  The grid is 8 row blocks × 10 column steps, point `n` being row block `n / 10` at column step `n % 10`.  The output
  block of a row block is zeroed at its first column step and then accumulates one partial statistic per step, so after
  point `n` it holds the sum of the partial statistics of the column steps `0 … n % 10` of the current row block.
-/
import proofs.«119155_j17222818857434_2_alg».proof.Proof.BodyValue
import proofs.«119155_j17222818857434_2_alg».proof.Proof.PayloadAt

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.Misfit

variable (m : (ℓ : Loc nD τ sig) → Buf (Elt Ideal) ℓ)

/-- The two input blocks of a grid point, at their literal type. -/
abbrev blk0 (c : Dev nD) (t : Fin cfg0.N) : Vec Ideal S8x160000 .f32 := iblk m c 0 t
abbrev blk1 (c : Dev nD) (t : Fin cfg0.N) : Vec Ideal S8x160000 .f32 := iblk m c 1 t

/-- The partial statistics of one grid point: entry `(p, q)` is the lane sum of statistic `q` over row `p` of the point's
    two input blocks. -/
def part (c : Dev nD) (t : Fin cfg0.N) : Vec Ideal S8x5 .f32 :=
  fun y => ∑ l : Fin 160000, colf (y 1) (blk0 m c t (ix2 (y 0) l)) (blk1 m c t (ix2 (y 0) l))

/-- The same, numbered by the naturals (zero past the grid, never read there). -/
def partN (c : Dev nD) (n : ℕ) : Vec Ideal S8x5 .f32 :=
  if h : n < cfg0.N then part m c ⟨n, h⟩ else fun _ => 0

theorem partN_of_lt (c : Dev nD) (n : ℕ) (h : n < cfg0.N) : partN m c n = part m c ⟨n, h⟩ := dif_pos h

/-- The payload at a grid point adds that point's partial statistics. -/
theorem pay_part (c : Dev nD) (t : Fin cfg0.N) (acc : Vec Ideal S8x5 .f32) (y : S8x5.Idx) :
    k0_pay2 (F := Ideal) (blk0 m c t) (blk1 m c t) acc y = acc y + part m c t y := by
  obtain ⟨p, q, rfl⟩ : ∃ (p : Fin 8) (q : Fin 5), y = ix2 p q := ⟨y 0, y 1, eq_ix2 y⟩
  exact pay_apply (blk0 m c t) (blk1 m c t) acc p q

/-- The zero block is zero. -/
theorem zero_apply (y : S8x5.Idx) : (zero (F := Ideal)) y = 0 := Ideal.ofBits_zero_f32

/-- AFTER POINT `n`: the sum of the partial statistics of the current row block's column steps up to this one. -/
theorem outsAt_eq (c : Dev nD) : ∀ (n : ℕ) (h : n < cfg0.N) (y : S8x5.Idx),
    outsAt0 m c n h y = ∑ k ∈ Finset.range (n % 10 + 1), partN m c (n - n % 10 + k) y
  | 0, h, y => by
    rw [outsAt0_A m c ⟨0, h⟩ rfl, out_first]
    refine (pay_part m c ⟨0, h⟩ zero y).trans ?_
    rw [zero_apply, zero_add]
    show _ = ∑ k ∈ Finset.range 1, partN m c (0 + k) y
    rw [Finset.sum_range_one, partN_of_lt m c 0 h]
  | n + 1, h, y => by
    by_cases h0 : (n + 1) % 10 = 0
    · rw [outsAt0_A m c ⟨n + 1, h⟩ h0, out_first]
      refine (pay_part m c ⟨n + 1, h⟩ zero y).trans ?_
      rw [zero_apply, zero_add, h0, Finset.sum_range_one, Nat.sub_zero]
      exact (congrFun (partN_of_lt m c (n + 1) h) y).symm
    · rw [outsAt0_B m c ⟨n + 1, h⟩ h0, out_later]
      refine (pay_part m c ⟨n + 1, h⟩ _ y).trans ?_
      show outsAt0 m c n _ y + _ = _
      rw [outsAt_eq c n _ y]
      have e1 : (n + 1) % 10 = n % 10 + 1 := by omega
      have e2 : n + 1 - (n % 10 + 1) = n - n % 10 := by omega
      have e3 : n - n % 10 + (n % 10 + 1) = n + 1 := by omega
      rw [e1, e2, Finset.sum_range_succ _ (n % 10 + 1), e3]
      exact congrArg (_ + ·) (congrFun (partN_of_lt m c (n + 1) h) y).symm

end Cert.KernelIdeal.Body

end
-- ==== Proof.StatsArray.lean ====
/-
  The `[64, 5]` array of statistics the region leaves.

  Row block `i` of the array is written back once, after the last column step of that row block, and by then the
  running block holds the sum over the ten column steps of the partial statistics — each a sum over the 160000 lanes
  of the step.  Ten blocks of 160000 lanes are the 1600000 columns of the `[64, 1600000]` views of the two inputs, so
  entry `(ρ, q)` of the array is the sum over all columns of row `ρ` of statistic `q`.
-/
import proofs.«119155_j17222818857434_2_alg».proof.Proof.Accumulate
import Mathlib.Algebra.BigOperators.Fin
import Mathlib.Logic.Equiv.Fin.Basic

noncomputable section

open Idealize.ShloMosaic Idealize.ShloMosaic.TcCoe Idealize.SL.Sem Idealize.ShloMosaic.ValueIdx
open Idealize.ShloMosaic.Pipeline (Dat)

namespace Cert.Misfit

/-- A sum over `m · n` terms taken as `m` blocks of `n`. -/
theorem sum_blocks {M : Type} [AddCommMonoid M] (m n N : ℕ) (hN : m * n = N) (g : Fin N → M) :
    ∑ k : Fin m, ∑ l : Fin n, g ⟨n * k.val + l.val, by
        subst hN
        calc n * k.val + l.val < n * k.val + n := by have := l.isLt; omega
          _ = n * (k.val + 1) := by ring
          _ ≤ n * m := Nat.mul_le_mul_left _ k.isLt
          _ = m * n := Nat.mul_comm _ _⟩ = ∑ cc : Fin N, g cc := by
  subst hN
  rw [← Equiv.sum_comp finProdFinEquiv g, Fintype.sum_prod_type]
  refine Finset.sum_congr rfl fun k _ => Finset.sum_congr rfl fun l _ => congrArg g (Fin.ext ?_)
  show n * k.val + l.val = (finProdFinEquiv (k, l)).val
  rw [finProdFinEquiv_apply_val]
  ring

end Cert.Misfit

namespace Cert.KernelIdeal.Body

open Cert.KernelIdeal Cert.KernelIdeal.Gen Cert.Misfit

variable (m : (ℓ : Loc nD τ sig) → Buf (Elt Ideal) ℓ)

/-- The printed index maps over the grid: point `t` is row block `t / 10` at column step `t % 10`; the output's block
    moves with the row block only. -/
theorem idx_facts : ∀ t : Fin cfg0.N, win0_0.index t (0 : Fin 2) = t.val / 10 ∧ win0_0.index t (1 : Fin 2) = t.val % 10
    ∧ win0_1.index t (0 : Fin 2) = t.val / 10 ∧ win0_1.index t (1 : Fin 2) = t.val % 10
    ∧ win0_2.index t (0 : Fin 2) = t.val / 10 ∧ win0_2.index t (1 : Fin 2) = 0 :=
  (by decide +kernel : ∀ t : Fin grid0.N, _)

/-- The two `[64, 1600000]` views the region reads, as it finds them. -/
abbrev Y0 (c : Dev nD) : S64x1600000.Idx → EReal := V m c main_v0
abbrev Y1 (c : Dev nD) : S64x1600000.Idx → EReal := V m c main_v1

/-- An entry of a point's first input block is the entry of the view at row `8 · (t / 10) + p`, column
    `160000 · (t % 10) + l`. -/
theorem blk0_apply (c : Dev nD) (t : Fin cfg0.N) (p : Fin 8) (l : Fin 160000) (r : Fin 64) (cc : Fin 1600000)
    (hr : r.val = 8 * (t.val / 10) + p.val) (hc : cc.val = 160000 * (t.val % 10) + l.val) :
    blk0 m c t (ix2 p l) = Y0 m c (ix2 r cc) := by
  obtain ⟨e0, e1, -⟩ := idx_facts t
  show iblk m c 0 t (ix2 p l) = _
  unfold iblk
  rw [View.read_apply]
  show V m c main_v0 _ = V m c main_v0 _
  congr 1
  funext a
  apply Fin.ext
  match a with
  | ⟨0, _⟩ => show win0_0.index t (0 : Fin 2) * 8 + 1 * p.val = r.val; omega
  | ⟨1, _⟩ => show win0_0.index t (1 : Fin 2) * 160000 + 1 * l.val = cc.val; omega

theorem blk1_apply (c : Dev nD) (t : Fin cfg0.N) (p : Fin 8) (l : Fin 160000) (r : Fin 64) (cc : Fin 1600000)
    (hr : r.val = 8 * (t.val / 10) + p.val) (hc : cc.val = 160000 * (t.val % 10) + l.val) :
    blk1 m c t (ix2 p l) = Y1 m c (ix2 r cc) := by
  obtain ⟨-, -, e0, e1, -⟩ := idx_facts t
  show iblk m c 1 t (ix2 p l) = _
  unfold iblk
  rw [View.read_apply]
  show V m c main_v1 _ = V m c main_v1 _
  congr 1
  funext a
  apply Fin.ext
  match a with
  | ⟨0, _⟩ => show win0_1.index t (0 : Fin 2) * 8 + 1 * p.val = r.val; omega
  | ⟨1, _⟩ => show win0_1.index t (1 : Fin 2) * 160000 + 1 * l.val = cc.val; omega

theorem part_apply (c : Dev nD) (t : Fin cfg0.N) (p : Fin 8) (q : Fin 5) :
    part m c t (ix2 p q) = ∑ l : Fin 160000, colf q (blk0 m c t (ix2 p l)) (blk1 m c t (ix2 p l)) := rfl

/-- THE ARRAY THE REGION LEAVES: entry `(ρ, q)` is the sum over the 1600000 columns of row `ρ` of statistic `q`. -/
def stats (c : Dev nD) : S64x5.Idx → EReal :=
  fun i => ∑ cc : Fin 1600000, colf (i 1) (Y0 m c (ix2 (i 0) cc)) (Y1 m c (ix2 (i 0) cc))

theorem stats_apply (c : Dev nD) (r : Fin 64) (q : Fin 5) :
    stats m c (ix2 r q) = ∑ cc : Fin 1600000, colf q (Y0 m c (ix2 r cc)) (Y1 m c (ix2 r cc)) := rfl

/-- After the last column step of a row block the running block holds that row block of `stats`: entry `y` of the
    block is entry `i` of the array, `i` being `y` moved down by 8 rows per row block. -/
theorem after_last (c : Dev nD) (t : Fin cfg0.N) (h9 : t.val % 10 = 9) (y : S8x5.Idx) (i : S64x5.Idx)
    (hi0 : (i 0).val = 8 * (t.val / 10) + (y 0).val) (hi1 : (i 1).val = (y 1).val) :
    outsAt0 m c t.val t.isLt y = stats m c i := by
  have hN : t.val < 80 := lt_of_lt_of_eq t.isLt (show cfg0.N = 80 from N_0)
  obtain ⟨p, q, rfl⟩ : ∃ (p : Fin 8) (q : Fin 5), y = ix2 p q := ⟨y 0, y 1, eq_ix2 y⟩
  obtain ⟨r, q', rfl⟩ : ∃ (r : Fin 64) (q' : Fin 5), i = ix2 r q' := ⟨i 0, i 1, eq_ix2 i⟩
  have hr : r.val = 8 * (t.val / 10) + p.val := hi0
  obtain rfl : q' = q := Fin.ext hi1
  have hp : p.val < 8 := p.isLt
  rw [outsAt_eq m c t.val t.isLt, h9, stats_apply]
  show ∑ k ∈ Finset.range 10, partN m c (t.val - 9 + k) (ix2 p q') = _
  rw [Finset.sum_range]
  refine Eq.trans ?_ (sum_blocks 10 160000 1600000 rfl
    (fun cc => colf q' (Y0 m c (ix2 r cc)) (Y1 m c (ix2 r cc))))
  refine Finset.sum_congr rfl fun k _ => ?_
  have hk10 : k.val < 10 := k.isLt
  have hk : t.val - 9 + k.val < cfg0.N :=
    lt_of_lt_of_eq (by omega : t.val - 9 + k.val < 80) (show cfg0.N = 80 from N_0).symm
  rw [partN_of_lt m c _ hk, part_apply]
  refine Finset.sum_congr rfl fun l _ => ?_
  have hl : l.val < 160000 := l.isLt
  rw [blk0_apply m c ⟨t.val - 9 + k.val, hk⟩ p l r ⟨160000 * k.val + l.val, by omega⟩
      (by show r.val = 8 * ((t.val - 9 + k.val) / 10) + p.val; omega)
      (by show 160000 * k.val + l.val = 160000 * ((t.val - 9 + k.val) % 10) + l.val; omega),
    blk1_apply m c ⟨t.val - 9 + k.val, hk⟩ p l r ⟨160000 * k.val + l.val, by omega⟩
      (by show r.val = 8 * ((t.val - 9 + k.val) / 10) + p.val; omega)
      (by show 160000 * k.val + l.val = 160000 * ((t.val - 9 + k.val) % 10) + l.val; omega)]

/-- What a row block's one write-back writes — after its last column step — is that row block of `stats`. -/
theorem flushed_eq (c : Dev nD) (t : Fin cfg0.N) (hf : (cfg0.win 2).flush t = true) :
    (dats m 0 c).flushed 2 t = ((cfg0.win 2).blk t).view.read (Elt Ideal) (stats m c) := by
  have h9 : t.val % 10 = 9 := (flush0_2 t).mp hf
  obtain ⟨-, -, -, -, e0, e1⟩ := idx_facts t
  show (cfg0.win 2).cut (grid0.coords t) ((dats m 0 c).after 2 t) = _
  rw [after0_2]
  funext j
  rw [View.read_apply]
  refine (after_last m c t h9 ((cfg0.win 2).xinj (grid0.coords t) j) (((cfg0.win 2).blk t).view.emb j) ?_ ?_).trans
    (cast_eq _ _).symm
  · show win0_2.index t (0 : Fin 2) * 8 + 1 * (j 0).val = 8 * (t.val / 10) + (j 0).val
    omega
  · show win0_2.index t (1 : Fin 2) * 5 + 1 * (j 1).val = (j 1).val
    omega

/-- An index of the array is in point `t`'s output block iff each coordinate is in the block's range on its axis. -/
theorem mem_blk (t : Fin cfg0.N) (i : S64x5.Idx) :
    i ∈ ((cfg0.win 2).blk t).view.set ↔ ∀ a : Fin 2, win0_2.index t a * S8x5.size a ≤ (i a).val ∧ (i a).val < win0_2.index t a * S8x5.size a + S8x5.size a := by
  show i ∈ ((View.whole main_v2).slice (win0_2.rect t)).set ↔ _
  rw [View.set_slice_whole, Rect.mem_set_unit]
  exact Iff.rfl

/-- Every entry of the array lies in the block some row block's write-back covers: row `ρ` in that of row block `ρ / 8`. -/
theorem covered (i : S64x5.Idx) :
    ∃ t : Fin cfg0.N, (cfg0.win 2).flush t = true ∧ i ∈ ((cfg0.win 2).blk t).view.set := by
  have hi0 : (i 0).val < 64 := (i 0).isLt
  have hi1 : (i 1).val < 5 := (i 1).isLt
  have hN : cfg0.N = 80 := N_0
  have ht : 10 * ((i 0).val / 8) + 9 < cfg0.N := by rw [hN]; omega
  obtain ⟨-, -, -, -, e0, e1⟩ := idx_facts ⟨10 * ((i 0).val / 8) + 9, ht⟩
  have e0' : win0_2.index ⟨10 * ((i 0).val / 8) + 9, ht⟩ (0 : Fin 2) = (10 * ((i 0).val / 8) + 9) / 10 := e0
  refine ⟨⟨10 * ((i 0).val / 8) + 9, ht⟩, (flush0_2 _).mpr (by show (10 * ((i 0).val / 8) + 9) % 10 = 9; omega), ?_⟩
  rw [mem_blk]
  intro a
  match a with
  | ⟨0, _⟩ =>
    show win0_2.index ⟨10 * ((i 0).val / 8) + 9, ht⟩ (0 : Fin 2) * 8 ≤ (i 0).val ∧ (i 0).val < win0_2.index ⟨10 * ((i 0).val / 8) + 9, ht⟩ (0 : Fin 2) * 8 + 8
    omega
  | ⟨1, _⟩ =>
    show win0_2.index ⟨10 * ((i 0).val / 8) + 9, ht⟩ (1 : Fin 2) * 5 ≤ (i 1).val ∧ (i 1).val < win0_2.index ⟨10 * ((i 0).val / 8) + 9, ht⟩ (1 : Fin 2) * 5 + 5
    omega

/-- So the array of statistics ends holding `stats`. -/
theorem final (c : Dev nD) : (dats m 0 c).arrAt 2 cfg0.N = stats m c :=
  (dats m 0 c).arrAt_eq_of_cover 2 (stats m c) (flushed_eq m c) (covered)

end Cert.KernelIdeal.Body

end
-- ==== Proof.CenteredSums.lean ====
/-
  The two ways of writing the zero-mean correlation of one shot, as functions on the extended reals.

  One shot is a finite family of sample pairs `(x c, y c)`.  The reference centres each trace by its mean
  (`x c - (∑ x) / N`) and then takes the cross term and the two energies of the centred traces; the kernel
  takes the five raw sums `∑ x, ∑ y, ∑ x·y, ∑ x·x, ∑ y·y` in one pass and forms
  `∑ x·y - (∑ x)(∑ y) / N` and `max (∑ x·x - (∑ x)² / N) 0` afterwards.  Both end with
  `cross / (√E_y · √E_x)`.  `N` is the word `1.6e6` both programs print, and `0` the word `+0.0`.
-/
import Mathlib.Data.EReal.Basic
import Mathlib.Algebra.BigOperators.Group.Finset.Basic
import Idealize.ShloMosaic.PureOps.Ideal

noncomputable section

namespace Cert.Misfit

open Idealize.ShloMosaic

/-- The sample count of one shot, 4000 · 400, as the f32 word both programs divide by. -/
abbrev NN : EReal := Ideal.ofBits .f32 0x49C35000#32
/-- The f32 word `+0.0`: the initial value of every host sum and the floor of the kernel's energies. -/
abbrev ZERO : EReal := Ideal.ofBits .f32 0x00000000#32

variable {J : Type} [Fintype J]

/-- The mean of a trace as the reference takes it: the host sum (from `+0.0`) divided by the count. -/
def mean (x : J → EReal) : EReal := Ideal.div (ZERO + ∑ c, x c) NN

/-- The reference's term of one shot: the cross term of the centred traces over the product of the roots of
    their energies. -/
def refTerm (x y : J → EReal) : EReal :=
  Ideal.div (ZERO + ∑ c, (y c - mean y) * (x c - mean x))
    (Ideal.sqrt (ZERO + ∑ c, (y c - mean y) * (y c - mean y)) * Ideal.sqrt (ZERO + ∑ c, (x c - mean x) * (x c - mean x)))

/-- The kernel's term of one shot, from the five raw sums. -/
def kerTerm (sx sy sxy sxx syy : EReal) : EReal :=
  Ideal.div (sxy - Ideal.div (sx * sy) NN)
    (Ideal.sqrt (max (syy - Ideal.div (sy * sy) NN) ZERO) * Ideal.sqrt (max (sxx - Ideal.div (sx * sx) NN) ZERO))

end Cert.Misfit

end
-- ==== Proof.HostTail.lean ====
/-
  The host lines after the region, as one function of the `[64, 5]` array of statistics.

  They take the five columns of the array as vectors over the 64 shots, form per shot
  `cross = s_xy - s_x · s_y / N`, `E_y = max (s_yy - s_y · s_y / N) 0`, `E_x = max (s_xx - s_x · s_x / N) 0`,
  the quotient `cross / (√E_y · √E_x)`, and return minus the sum of the quotients over the shots.
-/
import proofs.«119155_j17222818857434_2_alg».proof.Proof.StatsArray
import proofs.«119155_j17222818857434_2_alg».proof.Proof.CenteredSums
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.Misfit

/-- One column of the statistics, as a vector over the shots. -/
def col (off : Fin 2 → Nat) (h : S64x5.Slices off S64x1) (v2 : S64x5.Idx → EReal) : S64.Idx → EReal :=
  shapeCast S64 (extractStridedSlice S64x1 off v2 h) Facts₀.shapeCasts_S64x1_S64

/-- The sample count broadcast over the shots, and the zero floor. -/
def cnt : S64.Idx → EReal := broadcastInDim S64 ![] Facts₀.bcast_S_S64 (constant (F := Ideal) S_ .f32 0x49C35000#32)
def flr : S64.Idx → EReal := broadcastInDim S64 ![] Facts₀.bcast_S_S64 (constant (F := Ideal) S_ .f32 0x00000000#32)

/-- The host lines after the region. -/
def tail (v2 : S64x5.Idx → EReal) : S_.Idx → EReal :=
  Host.negf (F := Ideal) (φ := .f32) (Host.reduceAdd (F := Ideal) (φ := .f32)
    (Host.divf (F := Ideal) (φ := .f32)
      (subf (F := Ideal) (φ := .f32) (col ![0, 2] Facts₀.slices_S64x5_S64x1_0_2 v2)
        (Host.divf (F := Ideal) (φ := .f32) (mulf (F := Ideal) (φ := .f32) (col ![0, 0] Facts₀.slices_S64x5_S64x1_0_0 v2) (col ![0, 1] Facts₀.slices_S64x5_S64x1_0_1 v2)) cnt))
      (mulf (F := Ideal) (φ := .f32)
        (Host.sqrt (F := Ideal) (φ := .f32) (maximumf (F := Ideal) (φ := .f32)
          (subf (F := Ideal) (φ := .f32) (col ![0, 4] Facts₀.slices_S64x5_S64x1_0_4 v2)
            (Host.divf (F := Ideal) (φ := .f32) (mulf (F := Ideal) (φ := .f32) (col ![0, 1] Facts₀.slices_S64x5_S64x1_0_1 v2) (col ![0, 1] Facts₀.slices_S64x5_S64x1_0_1 v2)) cnt)) flr))
        (Host.sqrt (F := Ideal) (φ := .f32) (maximumf (F := Ideal) (φ := .f32)
          (subf (F := Ideal) (φ := .f32) (col ![0, 3] Facts₀.slices_S64x5_S64x1_0_3 v2)
            (Host.divf (F := Ideal) (φ := .f32) (mulf (F := Ideal) (φ := .f32) (col ![0, 0] Facts₀.slices_S64x5_S64x1_0_0 v2) (col ![0, 0] Facts₀.slices_S64x5_S64x1_0_0 v2)) cnt)) flr))))
    (constant (F := Ideal) S_ .f32 0x00000000#32) Facts₀.reducesTo_S64_S_d0 Facts₀.h_S_)

variable (m : (ℓ : Loc nD τ sig) → Buf (Elt Ideal) ℓ)

set_option maxHeartbeats 2000000 in
/-- The program's result is the host tail of the statistics array. -/
theorem result_eq (c : Dev nD) :
    Pipeline.afterTail₀ cfgs (dats m) 0 (V0 m) [hostOps1] c main_v34 = tail (stats m c) := by
  unfold Pipeline.afterTail₀
  show StableHlo.after hostOps1 _ (Proc.devRef .tc main_v34) = _
  after_results_simp
  have hw : Pipeline.withArrays (cfgs 0).spec c (V0 m c) (fun w => (dats m 0 c).arrAt w (cfgs 0).N)
      (Proc.devRef .tc main_v2) = stats m c :=
    (Pipeline.withArrays_arr spec0 launch0.win.arr_inj c _ _ 2).trans (final m c)
  rw [hw]
  rfl

/-- A column of the statistics at a shot is the array's entry at that row and lane. -/
theorem col_apply (k : Fin 5) (off : Fin 2 → Nat) (hoff : off = ![0, k.val]) (h : S64x5.Slices off S64x1)
    (v2 : S64x5.Idx → EReal) (r : Fin 64) : col off h v2 (ix1 r) = v2 (ix2 r k) := by
  subst hoff
  unfold col
  refine (shapeCast_apply _ Facts₀.shapeCasts_S64x1_S64 (ix1 r) (ix2 r (0 : Fin 1)) ?_).trans ?_
  · rw [Shape.rowMajor_val_two, Shape.rowMajor_val_one]
    show r.val * 1 + 0 = r.val
    omega
  · refine extractStridedSlice_apply _ v2 h (ix2 r (0 : Fin 1)) (ix2 r k) fun a => ?_
    match a with
    | ⟨0, _⟩ => show r.val = 0 + r.val; omega
    | ⟨1, _⟩ => show k.val = k.val + 0; omega

/-- THE HOST TAIL, READ: minus the sum over the 64 shots of the kernel's per-shot term of the shot's five statistics. -/
theorem tail_apply (v2 : S64x5.Idx → EReal) :
    tail v2 = fun _ => -(ZERO + ∑ ρ : S64.Idx, kerTerm (v2 (ix2 (ρ 0) 0)) (v2 (ix2 (ρ 0) 1)) (v2 (ix2 (ρ 0) 2))
      (v2 (ix2 (ρ 0) 3)) (v2 (ix2 (ρ 0) 4))) := by
  funext i
  unfold tail
  show -(Host.reduceAdd (F := Ideal) (φ := .f32) _ _ Facts₀.reducesTo_S64_S_d0 Facts₀.h_S_ i) = _
  refine congrArg Neg.neg ?_
  simp only [Host.reduceAdd, Ideal.hostReduceAdd_def]
  refine (Ideal.hostReduceAdd_total Facts₀.reducesTo_S64_S_d0 (fun b => b.elim0) _ _ i).trans ?_
  refine congrArg (ZERO + ·) (Finset.sum_congr rfl fun ρ _ => ?_)
  obtain ⟨r, rfl⟩ : ∃ r : Fin 64, ρ = ix1 r := ⟨ρ 0, eq_ix1 ρ⟩
  show Ideal.div (col ![0, 2] Facts₀.slices_S64x5_S64x1_0_2 v2 (ix1 r)
        - Ideal.div (col ![0, 0] Facts₀.slices_S64x5_S64x1_0_0 v2 (ix1 r) * col ![0, 1] Facts₀.slices_S64x5_S64x1_0_1 v2 (ix1 r)) NN)
      (Ideal.sqrt (max (col ![0, 4] Facts₀.slices_S64x5_S64x1_0_4 v2 (ix1 r)
          - Ideal.div (col ![0, 1] Facts₀.slices_S64x5_S64x1_0_1 v2 (ix1 r) * col ![0, 1] Facts₀.slices_S64x5_S64x1_0_1 v2 (ix1 r)) NN) ZERO)
        * Ideal.sqrt (max (col ![0, 3] Facts₀.slices_S64x5_S64x1_0_3 v2 (ix1 r)
          - Ideal.div (col ![0, 0] Facts₀.slices_S64x5_S64x1_0_0 v2 (ix1 r) * col ![0, 0] Facts₀.slices_S64x5_S64x1_0_0 v2 (ix1 r)) NN) ZERO)) = _
  rw [col_apply 0 ![0, 0] rfl, col_apply 1 ![0, 1] rfl, col_apply 2 ![0, 2] rfl, col_apply 3 ![0, 3] rfl, col_apply 4 ![0, 4] rfl]
  rfl

end Cert.KernelIdeal.Body

end
-- ==== Proof.CenteredAlgebra.lean ====
/-
  The one-pass and the two-pass zero-mean correlation agree on finite samples.

  For real samples `a c`, `o c` over a finite index set with `N` elements, write `Sa = ∑ a`, `So = ∑ o`.
  Centring each trace by its mean and summing the products of the centred values gives
  `∑ (o c - So/N) (a c - Sa/N) = ∑ a·o - Sa·So/N`, because the two mixed terms each contribute
  `-Sa·So/N` and the constant term contributes `N · (So/N)(Sa/N) = +Sa·So/N`.  Taking the two traces equal,
  the energy of a centred trace is `∑ a·a - Sa²/N`, a sum of squares, hence nonnegative, so flooring it at
  zero changes nothing.  Every quantity up to the last quotient is therefore one and the same real number on
  both sides, and the last step applies the same function (quotient by the product of two roots) to equal
  arguments, whatever that function does when the denominator vanishes.
-/
import proofs.«119155_j17222818857434_2_alg».proof.Proof.CenteredSums
import Idealize.ShloMosaic.PureOps.Ideal.Laws
import Mathlib.Data.EReal.Operations
import Mathlib.Algebra.BigOperators.Ring.Finset
import Mathlib.Algebra.Order.BigOperators.Ring.Finset
import Mathlib.Tactic.Ring
import Mathlib.Tactic.FieldSimp
import Mathlib.Tactic.NormNum

noncomputable section

namespace Cert.Misfit

open Idealize.ShloMosaic

/-- The count word denotes the real number 1600000 = (2^23 + 4411392) · 2^(147 - 127 - 23). -/
theorem NN_eq : NN = ((1600000 : ℝ) : EReal) := by
  simp [Ideal.ofBits, Ideal.ieee, -EReal.coe_mul]; norm_num

/-- The word `+0.0` denotes zero. -/
theorem ZERO_eq : ZERO = 0 := Ideal.ofBits_zero_f32

variable {J : Type} [Fintype J]

/-- A finite sum of real numbers, each read as an extended real, is the real sum read as an extended real. -/
private theorem coe_sum (f : J → ℝ) : (∑ c, (f c : EReal)) = ((∑ c, f c : ℝ) : EReal) := by
  classical
  refine Finset.induction_on (Finset.univ : Finset J) (by simp) ?_
  intro c s hc ih
  rw [Finset.sum_insert hc, Finset.sum_insert hc, ih, EReal.coe_add]

/-- Flooring a nonnegative real at zero leaves it unchanged. -/
private theorem max_coe_zero {r : ℝ} (h : 0 ≤ r) : max (r : EReal) 0 = (r : EReal) :=
  max_eq_left (EReal.coe_nonneg.mpr h)

/-- The mean of finite samples is their real sum times the reciprocal of the count. -/
private theorem mean_coe (a : J → ℝ) :
    mean (fun c => (a c : EReal)) = (((∑ c, a c) * (1 / 1600000) : ℝ) : EReal) := by
  unfold mean
  rw [NN_eq, ZERO_eq, zero_add, coe_sum, Ideal.div_coe (by norm_num), ← EReal.coe_mul]

/-- The sum of products of centred values is the raw product sum less the product of the sums over the count. -/
private theorem centered_sum (u v : J → ℝ) (N : ℝ) (hN : (Fintype.card J : ℝ) = N) (hN0 : N ≠ 0) :
    (∑ c, (v c - (∑ c, v c) * (1 / N)) * (u c - (∑ c, u c) * (1 / N)))
      = (∑ c, u c * v c) - (∑ c, u c) * (∑ c, v c) * (1 / N) := by
  have h : ∀ c, (v c - (∑ c, v c) * (1 / N)) * (u c - (∑ c, u c) * (1 / N))
      = u c * v c - (∑ c, v c) * (1 / N) * u c - (∑ c, u c) * (1 / N) * v c
        + (∑ c, v c) * (1 / N) * ((∑ c, u c) * (1 / N)) := fun c => by ring
  simp only [h, Finset.sum_add_distrib, Finset.sum_sub_distrib, ← Finset.mul_sum, Finset.sum_const,
    Finset.card_univ, nsmul_eq_mul, hN]
  field_simp
  ring

/-- On finite samples the kernel's one-pass term and the reference's two-pass term are the same extended real:
    the cross term and the two energies are equal real numbers on the two sides, and the energies are
    nonnegative, so the floor at zero is the identity. -/
theorem kerTerm_eq_refTerm (a o : J → ℝ) (hN : (Fintype.card J : ℝ) = 1600000) :
    kerTerm (∑ c, (a c : EReal)) (∑ c, (o c : EReal)) (∑ c, (a c : EReal) * (o c : EReal))
      (∑ c, (a c : EReal) * (a c : EReal)) (∑ c, (o c : EReal) * (o c : EReal))
    = refTerm (fun c => (a c : EReal)) (fun c => (o c : EReal)) := by
  have hN0 : (1600000 : ℝ) ≠ 0 := by norm_num
  have hao := centered_sum a o 1600000 hN hN0
  have hoo := centered_sum o o 1600000 hN hN0
  have haa := centered_sum a a 1600000 hN hN0
  have hEo : 0 ≤ (∑ c, o c * o c) - (∑ c, o c) * (∑ c, o c) * (1 / 1600000) := by
    rw [← hoo]; exact Finset.sum_nonneg fun c _ => mul_self_nonneg _
  have hEa : 0 ≤ (∑ c, a c * a c) - (∑ c, a c) * (∑ c, a c) * (1 / 1600000) := by
    rw [← haa]; exact Finset.sum_nonneg fun c _ => mul_self_nonneg _
  unfold refTerm kerTerm
  simp only [mean_coe, NN_eq, ZERO_eq, zero_add, ← EReal.coe_sub, ← EReal.coe_mul, coe_sum,
    Ideal.div_coe hN0]
  rw [hao, hoo, haa, max_coe_zero hEo, max_coe_zero hEa]

end Cert.Misfit

end
-- ==== Proof.ShotIndex.lean ====
/-
  Where sample `c` of shot `(b, s)` sits in the `[4, 16, 4000, 400]` arrays: a shot's 4000 · 400 samples are numbered
  `c = 400 · t + r` in row-major order of (time step, receiver), which is also the column order of the
  `[64, 1600000]` view of the same array (row `16 · b + s`).
-/
import Idealize.ShloMosaic.Lib.ValueIdx

noncomputable section

namespace Cert.Misfit

open Idealize.ShloMosaic Idealize.ShloMosaic.ValueIdx

/-- Sample `c` of shot `(b, s)`: time step `c / 400`, receiver `c % 400`. -/
def sample (b : Fin 4) (s : Fin 16) (c : Fin 1600000) : (⟨4, ![4, 16, 4000, 400]⟩ : Shape).Idx :=
  ix4 b s ⟨c.val / 400, by have := c.isLt; omega⟩ ⟨c.val % 400, Nat.mod_lt _ (by decide)⟩

theorem sample_0 (b : Fin 4) (s : Fin 16) (c : Fin 1600000) : (sample b s c 0).val = b.val := rfl
theorem sample_1 (b : Fin 4) (s : Fin 16) (c : Fin 1600000) : (sample b s c 1).val = s.val := rfl
theorem sample_2 (b : Fin 4) (s : Fin 16) (c : Fin 1600000) : (sample b s c 2).val = c.val / 400 := rfl
theorem sample_3 (b : Fin 4) (s : Fin 16) (c : Fin 1600000) : (sample b s c 3).val = c.val % 400 := rfl

end Cert.Misfit

end
-- ==== Proof.KernelValue.lean ====
/-
  The kernel program's result as a function of its two arguments, on finite samples.

  The two `[64, 1600000]` views the region reads are reshapes of the `[4, 16, 4000, 400]` arguments: row `16·b + s`,
  column `c` of a view is sample `c` of shot `(b, s)`.  So the five statistics of row `16·b + s` are the five raw
  sums of that shot, the host tail forms the kernel's per-shot term from them, and on finite samples that term is the
  reference's (the centred form).  The 64 rows are the 4 × 16 shots.
-/
import proofs.«119155_j17222818857434_2_alg».proof.Proof.HostTail
import proofs.«119155_j17222818857434_2_alg».proof.Proof.CenteredAlgebra
import proofs.«119155_j17222818857434_2_alg».proof.Proof.ShotIndex

noncomputable section

open Idealize.ShloMosaic Idealize.ShloMosaic.TcCoe Idealize.SL.Sem Idealize.ShloMosaic.ValueIdx
open Idealize.ShloMosaic.Pipeline (Dat)

namespace Cert.Misfit

theorem colf_0 (u v : EReal) : colf 0 u v = u := rfl
theorem colf_1 (u v : EReal) : colf 1 u v = v := rfl
theorem colf_2 (u v : EReal) : colf 2 u v = u * v := rfl
theorem colf_3 (u v : EReal) : colf 3 u v = u * u := rfl
theorem colf_4 (u v : EReal) : colf 4 u v = v * v := rfl

/-- Shot `(b, s)` is row `16·b + s` of the `[64, …]` views. -/
def rowOf (j : (⟨2, ![4, 16]⟩ : Shape).Idx) : (⟨1, ![64]⟩ : Shape).Idx :=
  ix1 ⟨16 * (j 0).val + (j 1).val, by have h0 : (j 0).val < 4 := (j 0).isLt; have h1 : (j 1).val < 16 := (j 1).isLt; omega⟩

theorem rowOf_val (j : (⟨2, ![4, 16]⟩ : Shape).Idx) : ((rowOf j) 0).val = 16 * (j 0).val + (j 1).val := rfl

/-- The shots and the rows correspond one to one. -/
theorem rowOf_bijective : Function.Bijective rowOf := by
  constructor
  · intro j j' h
    have hv : 16 * (j 0).val + (j 1).val = 16 * (j' 0).val + (j' 1).val := congrArg (fun ρ => (ρ 0).val) h
    have h1 : (j 1).val < 16 := (j 1).isLt
    have h1' : (j' 1).val < 16 := (j' 1).isLt
    funext a
    apply Fin.ext
    match a with
    | ⟨0, _⟩ => show (j 0).val = (j' 0).val; omega
    | ⟨1, _⟩ => show (j 1).val = (j' 1).val; omega
  · intro ρ
    have hρ : (ρ 0).val < 64 := (ρ 0).isLt
    refine ⟨ix2 ⟨(ρ 0).val / 16, by omega⟩ ⟨(ρ 0).val % 16, Nat.mod_lt _ (by decide)⟩, ?_⟩
    funext a
    apply Fin.ext
    match a with
    | ⟨0, _⟩ => show 16 * ((ρ 0).val / 16) + (ρ 0).val % 16 = (ρ 0).val; omega

end Cert.Misfit

namespace Cert.KernelIdeal.Body

open Cert.KernelIdeal Cert.KernelIdeal.Gen Cert.Misfit

variable (m : (ℓ : Loc nD τ sig) → Buf (Elt Ideal) ℓ)

/-- The host lines before the region: each view is the reshape of its argument. -/
theorem Y0_eq (c : Dev nD) : Y0 m c
    = shapeCast S64x1600000 (m ((c : Thread nD τ).loc main_arg0)) Facts₀.shapeCasts_S4x16x4000x400_S64x1600000 := by
  show StableHlo.after hostOps0 (fun b => m (c, b)) (Proc.devRef .tc main_v0) = _
  after_results
  rfl

theorem Y1_eq (c : Dev nD) : Y1 m c
    = shapeCast S64x1600000 (m ((c : Thread nD τ).loc main_arg1)) Facts₀.shapeCasts_S4x16x4000x400_S64x1600000 := by
  show StableHlo.after hostOps0 (fun b => m (c, b)) (Proc.devRef .tc main_v1) = _
  after_results
  rfl

/-- Row `16·b + s`, column `cc` of the reshaped array is sample `cc` of shot `(b, s)`: the same row-major position. -/
theorem view_apply (x : S4x16x4000x400.Idx → EReal) (b : Fin 4) (s : Fin 16) (r : Fin 64) (hr : r.val = 16 * b.val + s.val)
    (cc : Fin 1600000) :
    shapeCast S64x1600000 x Facts₀.shapeCasts_S4x16x4000x400_S64x1600000 (ix2 r cc) = x (sample b s cc) := by
  refine shapeCast_apply x _ (ix2 r cc) (sample b s cc) ?_
  rw [Shape.rowMajor_val_four, Shape.rowMajor_val_two]
  show ((b.val * 16 + s.val) * 4000 + cc.val / 400) * 400 + cc.val % 400 = r.val * 1600000 + cc.val
  omega

/-- THE KERNEL PROGRAM'S RESULT on finite samples: minus the sum over the shots of the reference's per-shot term. -/
theorem kernel_value (c : Dev nD)
    (hx0 : ∀ i, ∃ r : ℝ, m ((c : Thread nD τ).loc main_arg0) i = (r : EReal))
    (hx1 : ∀ i, ∃ r : ℝ, m ((c : Thread nD τ).loc main_arg1) i = (r : EReal)) :
    Pipeline.afterTail₀ cfgs (dats m) 0 (V0 m) [hostOps1] c main_v34
      = fun _ => -(ZERO + ∑ j : (⟨2, ![4, 16]⟩ : Shape).Idx,
          refTerm (fun cc => m ((c : Thread nD τ).loc main_arg0) (sample (j 0) (j 1) cc))
            (fun cc => m ((c : Thread nD τ).loc main_arg1) (sample (j 0) (j 1) cc))) := by
  choose a ha using hx0
  choose o ho using hx1
  rw [result_eq, tail_apply]
  funext _
  refine congrArg Neg.neg (congrArg (ZERO + ·) ?_)
  refine (Fintype.sum_bijective rowOf rowOf_bijective _ _ fun j => ?_).symm
  have e0 : ∀ cc, Y0 m c (ix2 ((rowOf j) 0) cc) = (a (sample (j 0) (j 1) cc) : EReal) := fun cc => by
    rw [Y0_eq, view_apply _ (j 0) (j 1) _ (rowOf_val j), ha]
  have e1 : ∀ cc, Y1 m c (ix2 ((rowOf j) 0) cc) = (o (sample (j 0) (j 1) cc) : EReal) := fun cc => by
    rw [Y1_eq, view_apply _ (j 0) (j 1) _ (rowOf_val j), ho]
  rw [stats_apply m c ((rowOf j) 0) 0, stats_apply m c ((rowOf j) 0) 1, stats_apply m c ((rowOf j) 0) 2,
    stats_apply m c ((rowOf j) 0) 3, stats_apply m c ((rowOf j) 0) 4]
  simp only [e0, e1, colf_0, colf_1, colf_2, colf_3, colf_4, ha, ho]
  exact (kerTerm_eq_refTerm (fun cc => a (sample (j 0) (j 1) cc)) (fun cc => o (sample (j 0) (j 1) cc))
    (by rw [Fintype.card_fin]; norm_num)).symm

end Cert.KernelIdeal.Body

end
-- ==== Proof.ReferenceShots.lean ====
/-
  The reference program's result, at the exact (extended-real) reading of its operations, as a sum over shots.

  The reference takes, for each of the 4 · 16 shots `(b, s)`, the mean of each of the two traces over the shot's
  4000 · 400 samples (the host's sum from `+0.0`, divided by the count `1.6e6`), subtracts the mean from every sample,
  sums the products of the centred samples (the cross term) and their squares (the two energies), and divides the
  cross term by the product of the square roots of the energies.  The result is minus the sum (again from `+0.0`) of
  these 64 quotients.

  The module imported for the reference reads every operation at an index except the five sums over the last two
  axes.  Those are read here.  A sum over axes 2 and 3 of a `[4, 16, 4000, 400]` array, at `(b, s)`, runs over the
  indices whose first two coordinates are `(b, s)`; `(t, r) ↦ 400 · t + r` numbers them by `Fin 1600000`, with inverse
  `c ↦ (c / 400, c % 400)`, so the sum is the sum over the sample number `c` of the array at `sample b s c`
  (`hostReduceAdd_shot`).  Everything else is reading the operations one at a time: a broadcast of a per-shot value,
  read at `sample b s c`, is that value at `(b, s)`.
-/
import proofs.«119155_j17222818857434_2_alg».proof.Proof.Gen.ReferenceIdeal.Read
import proofs.«119155_j17222818857434_2_alg».proof.Proof.CenteredSums
import proofs.«119155_j17222818857434_2_alg».proof.Proof.ShotIndex
import Idealize.ShloMosaic.Lib.ValueIdx
import Idealize.ShloMosaic.Lib.Pipeline.Value
import Idealize.ShloMosaic.PureOps.Ideal.Laws

noncomputable section

namespace Cert.Misfit.Ref

open Idealize.ShloMosaic Idealize.ShloMosaic.ValueIdx Cert.ReferenceIdeal Cert.ReferenceIdeal.Read Cert.Misfit

/-! ## A sum over the last two axes is a sum over the sample number -/

/-- An index of the big array that keeps `(b, s)` on its first two axes is the sample numbered
    `400 · t + r` of shot `(b, s)`, where `(t, r)` are its last two coordinates. -/
theorem sample_flat (h : S4x16x4000x400.ReducesTo [2, 3] S4x16) (j : S4x16.Idx) (i : S4x16x4000x400.Idx)
    (hi : h.drop i = j) (hlt : 400 * (i 2).val + (i 3).val < 1600000) :
    sample (j 0) (j 1) ⟨400 * (i 2).val + (i 3).val, hlt⟩ = i := by
  have h0 : (j 0).val = (i 0).val :=
    (congrArg (fun k : S4x16.Idx => (k 0).val) hi).symm.trans (h.drop_apply_val_of_eq i 0 0)
  have h1 : (j 1).val = (i 1).val :=
    (congrArg (fun k : S4x16.Idx => (k 1).val) hi).symm.trans (h.drop_apply_val_of_eq i 1 1)
  have h2 : (i 2).val < 4000 := (i 2).isLt
  have h3 : (i 3).val < 400 := (i 3).isLt
  funext a
  apply Fin.ext
  match a with
  | ⟨0, _⟩ => exact h0
  | ⟨1, _⟩ => exact h1
  | ⟨2, _⟩ => show (400 * (i 2).val + (i 3).val) / 400 = (i 2).val; omega
  | ⟨3, _⟩ => show (400 * (i 2).val + (i 3).val) % 400 = (i 3).val; omega

/-- Every sample of shot `(b, s)` keeps `(b, s)` when the last two axes are dropped. -/
theorem drop_sample (h : S4x16x4000x400.ReducesTo [2, 3] S4x16) (j : S4x16.Idx) (c : Fin 1600000) :
    h.drop (sample (j 0) (j 1) c) = j := by
  funext b
  apply Fin.ext
  match b with
  | ⟨0, _⟩ => exact h.drop_apply_val_of_eq (sample (j 0) (j 1) c) 0 0
  | ⟨1, _⟩ => exact h.drop_apply_val_of_eq (sample (j 0) (j 1) c) 1 1

/-- The indices that drop to `(b, s)` are exactly the 1 600 000 samples of that shot, each once: the sum over
    them is the sum over the sample number. -/
theorem sum_filter_drop (h : S4x16x4000x400.ReducesTo [2, 3] S4x16) (x : S4x16x4000x400.Idx → EReal)
    (j : S4x16.Idx) :
    ∑ i ∈ Finset.univ.filter (fun i => h.drop i = j), x i = ∑ c : Fin 1600000, x (sample (j 0) (j 1) c) := by
  have hlt : ∀ i : S4x16x4000x400.Idx, 400 * (i 2).val + (i 3).val < 1600000 := fun i => by
    have h2 : (i 2).val < 4000 := (i 2).isLt
    have h3 : (i 3).val < 400 := (i 3).isLt
    omega
  refine Finset.sum_bij'
    (fun i _ => (⟨400 * (i 2).val + (i 3).val, hlt i⟩ : Fin 1600000))
    (fun c _ => sample (j 0) (j 1) c) ?_ ?_ ?_ ?_ ?_
  · intro i _; exact Finset.mem_univ _
  · intro c _
    rw [Finset.mem_filter]
    exact ⟨Finset.mem_univ _, drop_sample h j c⟩
  · intro i hi
    rw [Finset.mem_filter] at hi
    exact sample_flat h j i hi.2 (hlt i)
  · intro c _
    apply Fin.ext
    show 400 * (c.val / 400) + c.val % 400 = c.val
    omega
  · intro i hi
    rw [Finset.mem_filter] at hi
    exact congrArg x (sample_flat h j i hi.2 (hlt i)).symm

/-- The host's sum over the last two axes, at shot `(b, s)`: the initial value plus the sum over the shot's samples. -/
theorem hostReduceAdd_shot (h : S4x16x4000x400.ReducesTo [2, 3] S4x16) (x : S4x16x4000x400.Idx → EReal)
    (init : EReal) (j : S4x16.Idx) :
    Ideal.hostReduceAdd h x init j = init + ∑ c : Fin 1600000, x (sample (j 0) (j 1) c) := by
  show init + ∑ i ∈ Finset.univ.filter (fun i => h.drop i = j), x i = _
  rw [sum_filter_drop h x j]

/-- The same for the host operation as the reference states it: its initial value is the one element of a rank-0
    array.  The result index is given by its two coordinates `(b, s)`. -/
theorem reduceAdd_at (y : S4x16x4000x400.Idx → EReal) (init : S_.Idx → EReal)
    (h : S4x16x4000x400.ReducesTo [2, 3] S4x16) (hu : 0 < S_.numel) (b : Fin 4) (s : Fin 16) (j : S4x16.Idx)
    (h0 : j 0 = b) (h1 : j 1 = s) :
    Host.reduceAdd (F := Ideal) (φ := .f32) y init h hu j
      = init (Shape.Idx.first hu) + ∑ c : Fin 1600000, y (sample b s c) := by
  subst h0 h1
  exact hostReduceAdd_shot h y _ j

/-! ## The means -/

/-- The first trace's mean, wherever it is read in the `[4, 16, 1, 1]` array at shot `(b, s)`. -/
theorem v3_at (x0 : S4x16x4000x400.Idx → EReal) (b : Fin 4) (s : Fin 16) (i : S4x16x1x1.Idx)
    (h0 : (i 0).val = b.val) (h1 : (i 1).val = s.val) :
    val_main_v3 (F := Ideal) x0 i = mean (fun c => x0 (sample b s c)) := by
  rw [val_main_v3_apply, val_main_v1_apply, val_main_v2_apply, val_main_cst_0_apply]
  unfold val_main_v0
  rw [reduceAdd_at x0 _ _ _ b s (idx_main_v1 i) (Fin.ext h0) (Fin.ext h1)]
  rfl

/-- The second trace's mean, likewise. -/
theorem v7_at (x1 : S4x16x4000x400.Idx → EReal) (b : Fin 4) (s : Fin 16) (i : S4x16x1x1.Idx)
    (h0 : (i 0).val = b.val) (h1 : (i 1).val = s.val) :
    val_main_v7 (F := Ideal) x1 i = mean (fun c => x1 (sample b s c)) := by
  rw [val_main_v7_apply, val_main_v5_apply, val_main_v6_apply, val_main_cst_2_apply]
  unfold val_main_v4
  rw [reduceAdd_at x1 _ _ _ b s (idx_main_v5 i) (Fin.ext h0) (Fin.ext h1)]
  rfl

/-! ## The centred samples and their products, at sample `c` of shot `(b, s)` -/

/-- The first trace, centred. -/
theorem v9_sample (x0 : S4x16x4000x400.Idx → EReal) (b : Fin 4) (s : Fin 16) (c : Fin 1600000) :
    val_main_v9 (F := Ideal) x0 (sample b s c) = x0 (sample b s c) - mean (fun c => x0 (sample b s c)) := by
  rw [val_main_v9_apply, val_main_v8_apply, v3_at x0 b s _ rfl rfl]
  rfl

/-- The second trace, centred. -/
theorem v11_sample (x1 : S4x16x4000x400.Idx → EReal) (b : Fin 4) (s : Fin 16) (c : Fin 1600000) :
    val_main_v11 (F := Ideal) x1 (sample b s c) = x1 (sample b s c) - mean (fun c => x1 (sample b s c)) := by
  rw [val_main_v11_apply, val_main_v10_apply, v7_at x1 b s _ rfl rfl]
  rfl

/-- The product of the two centred samples. -/
theorem v12_sample (x0 x1 : S4x16x4000x400.Idx → EReal) (b : Fin 4) (s : Fin 16) (c : Fin 1600000) :
    val_main_v12 (F := Ideal) x0 x1 (sample b s c)
      = (x1 (sample b s c) - mean (fun c => x1 (sample b s c))) * (x0 (sample b s c) - mean (fun c => x0 (sample b s c))) := by
  rw [val_main_v12_apply, v11_sample, v9_sample]
  rfl

/-- The square of the second trace's centred sample. -/
theorem v14_sample (x1 : S4x16x4000x400.Idx → EReal) (b : Fin 4) (s : Fin 16) (c : Fin 1600000) :
    val_main_v14 (F := Ideal) x1 (sample b s c)
      = (x1 (sample b s c) - mean (fun c => x1 (sample b s c))) * (x1 (sample b s c) - mean (fun c => x1 (sample b s c))) := by
  rw [val_main_v14_apply, v11_sample]
  rfl

/-- The square of the first trace's centred sample. -/
theorem v16_sample (x0 : S4x16x4000x400.Idx → EReal) (b : Fin 4) (s : Fin 16) (c : Fin 1600000) :
    val_main_v16 (F := Ideal) x0 (sample b s c)
      = (x0 (sample b s c) - mean (fun c => x0 (sample b s c))) * (x0 (sample b s c) - mean (fun c => x0 (sample b s c))) := by
  rw [val_main_v16_apply, v9_sample]
  rfl

/-! ## The cross term and the two energies of shot `(b, s)` -/

/-- The cross term: the sum of the products of the centred samples. -/
theorem v13_at (x0 x1 : S4x16x4000x400.Idx → EReal) (j : S4x16.Idx) :
    val_main_v13 (F := Ideal) x0 x1 j
      = ZERO + ∑ c : Fin 1600000, (x1 (sample (j 0) (j 1) c) - mean (fun c => x1 (sample (j 0) (j 1) c)))
          * (x0 (sample (j 0) (j 1) c) - mean (fun c => x0 (sample (j 0) (j 1) c))) := by
  unfold val_main_v13
  rw [reduceAdd_at _ _ _ _ (j 0) (j 1) j rfl rfl, val_main_cst_3_apply,
    Finset.sum_congr rfl fun c _ => v12_sample x0 x1 (j 0) (j 1) c]
  rfl

/-- The second trace's energy: the sum of the squares of its centred samples. -/
theorem v15_at (x1 : S4x16x4000x400.Idx → EReal) (j : S4x16.Idx) :
    val_main_v15 (F := Ideal) x1 j
      = ZERO + ∑ c : Fin 1600000, (x1 (sample (j 0) (j 1) c) - mean (fun c => x1 (sample (j 0) (j 1) c)))
          * (x1 (sample (j 0) (j 1) c) - mean (fun c => x1 (sample (j 0) (j 1) c))) := by
  unfold val_main_v15
  rw [reduceAdd_at _ _ _ _ (j 0) (j 1) j rfl rfl, val_main_cst_4_apply,
    Finset.sum_congr rfl fun c _ => v14_sample x1 (j 0) (j 1) c]
  rfl

/-- The first trace's energy. -/
theorem v17_at (x0 : S4x16x4000x400.Idx → EReal) (j : S4x16.Idx) :
    val_main_v17 (F := Ideal) x0 j
      = ZERO + ∑ c : Fin 1600000, (x0 (sample (j 0) (j 1) c) - mean (fun c => x0 (sample (j 0) (j 1) c)))
          * (x0 (sample (j 0) (j 1) c) - mean (fun c => x0 (sample (j 0) (j 1) c))) := by
  unfold val_main_v17
  rw [reduceAdd_at _ _ _ _ (j 0) (j 1) j rfl rfl, val_main_cst_5_apply,
    Finset.sum_congr rfl fun c _ => v16_sample x0 (j 0) (j 1) c]
  rfl

/-! ## The result -/

/-- One shot's quotient: the cross term over the product of the roots of the energies. -/
theorem v21_at (x0 x1 : S4x16x4000x400.Idx → EReal) (j : S4x16.Idx) :
    val_main_v21 (F := Ideal) x0 x1 j
      = refTerm (fun c => x0 (sample (j 0) (j 1) c)) (fun c => x1 (sample (j 0) (j 1) c)) := by
  rw [val_main_v21_apply, val_main_v20_apply, val_main_v18_apply, val_main_v19_apply, v13_at, v15_at, v17_at]
  unfold refTerm
  simp only [Ideal.hostDivf_def, Ideal.mulf_def, Ideal.hostUnary_sqrt_def]

/-- The reference's result: minus the sum, from `+0.0`, over the 64 shots of the shot's quotient. -/
theorem ref_result (x0 x1 : S4x16x4000x400.Idx → EReal) :
    val_main_v23 (F := Ideal) x0 x1
      = fun _ => -(ZERO + ∑ j : S4x16.Idx,
          refTerm (fun c => x0 (sample (j 0) (j 1) c)) (fun c => x1 (sample (j 0) (j 1) c))) := by
  funext i
  rw [val_main_v23_apply, val_main_v22_apply, val_main_cst_6_apply,
    Finset.sum_congr rfl fun j _ => v21_at x0 x1 j]
  rfl

end Cert.Misfit.Ref

end
-- ==== Proof.FiniteSamples.lean ====
/-
  The precondition "every sample of both traces is finite", read back as a statement about extended reals.

  The precondition is the one-bit word `all (|x0| < +inf) and all (|x1| < +inf)`, stated to be 1.  A one-bit
  `and` is 1 only when both of its operands are, and an `and`-reduction over every axis that came out 1 met a
  1 at every index.  So at each index `i` the comparison `|x i| < +inf` holds.  On the extended reals the
  absolute value is `max x (-x)` and the word `0x7F800000` is `⊤`; `max x (-x) < ⊤` rules out `x = ⊤`
  (then `max` is `⊤`) and `x = ⊥` (then `-x = ⊤`), and an extended real that is neither is a real number.
  Everything is done at one symbolic index; the index set is never enumerated.
-/
import proofs.«119155_j17222818857434_2_alg».proof.Proof.Gen.Pre_finite_inputs
import Idealize.ShloMosaic.Lib.ReduceAll
import Idealize.ShloMosaic.Lib.ValueIdx
import Idealize.ShloMosaic.PureOps.Ideal

namespace Cert.Misfit.Finite

open Idealize.ShloMosaic Cert.Pre_finite_inputs

/-- The rank-0 shape has one index. -/
instance : Subsingleton S_.Idx := ⟨fun _ _ => funext fun d => d.elim0⟩

/-- An extended real whose absolute value `max x (-x)` lies below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the printed comparison `|x| < +inf` being 1 says that element of `x` is a real number. -/
theorem real_of_cmp (x : S4x16x4000x400.Idx → EReal) (hb : S_.BroadcastsInDim S4x16x4000x400 (![] : Fin 0 → Fin S4x16x4000x400.rank))
    (i : S4x16x4000x400.Idx)
    (h : cmpf (F := Ideal) .olt (Host.absf (φ := .f32) x)
      (broadcastInDim S4x16x4000x400 ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  have htop : Ideal.ofBits .f32 0x7F800000#32 = ⊤ := by simp [Ideal.ofBits, Ideal.ieee]
  rw [htop] at h'
  have hd : BitVec.ofBool (decide (max (x i) (-(x i)) < ⊤)) = 1#1 := h'
  refine real_of_abs_lt_top (x i) ?_
  by_contra hc
  rw [decide_eq_false hc] at hd
  exact absurd hd (by decide)

/-- The finiteness precondition at the extended reals: if the printed predicate evaluates to 1, every sample of
    both traces is a real number. -/
theorem real_of_pre (x0 x1 : Cert.Pre_finite_inputs.S4x16x4000x400.Idx → EReal)
    (h : Cert.Pre_finite_inputs.fn (F := Idealize.ShloMosaic.Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_cmp x0 _ i (Host.reduce_andi_all _ _ _ _ _ ha i),
    fun i => real_of_cmp x1 _ i (Host.reduce_andi_all _ _ _ _ _ hb i)⟩

end Cert.Misfit.Finite
-- ==== Proof.lean ====
/-
  The zero-mean correlation misfit: a one-pass kernel against the two-pass reference, over the extended reals.

  Both programs take two arrays of 4 × 16 shots of 4000 × 400 samples and return minus the sum over the shots of
  `cross / (√E_obs · √E_syn)`, the correlation of the shot's two traces after each is centred by its mean.  The
  reference centres first and then sums; the kernel streams the two arrays once, as `[64, 1600000]` views cut into
  8 × 160000 blocks, accumulating per row the five raw sums `∑x, ∑y, ∑xy, ∑xx, ∑yy` over ten column steps, and forms
  `∑xy - ∑x∑y/N` and `max (∑xx - (∑x)²/N) 0` on the host afterwards.

  The proof: the running block after each grid point in closed form (induction on the point), hence the `[64, 5]`
  array the region leaves as sums over all 1600000 columns; the host lines after the region read as one function of
  that array; a row of a view is a shot, sample for sample; the reference's sums over the two sample axes are sums over
  the same 1600000 samples; and on finite samples — which is what the precondition says — centring then summing and
  summing then correcting are the same real numbers, the corrected energies being sums of squares and so untouched by
  the floor at zero.  The last quotient is then one function applied to equal arguments on both sides.
-/
import proofs.«119155_j17222818857434_2_alg».proof.Defs
import proofs.«119155_j17222818857434_2_alg».proof.Proof.Gen.Kernel
import proofs.«119155_j17222818857434_2_alg».proof.Proof.Gen.Kernel.Skeleton
import proofs.«119155_j17222818857434_2_alg».proof.Proof.Gen.Kernel.Launch
import proofs.«119155_j17222818857434_2_alg».proof.Proof.Gen.Kernel.Points
import proofs.«119155_j17222818857434_2_alg».proof.Proof.Gen.Kernel.Frame
import proofs.«119155_j17222818857434_2_alg».proof.Proof.Gen.KernelIdeal
import proofs.«119155_j17222818857434_2_alg».proof.Proof.Gen.KernelIdeal.Skeleton
import proofs.«119155_j17222818857434_2_alg».proof.Proof.Gen.KernelIdeal.Launch
import proofs.«119155_j17222818857434_2_alg».proof.Proof.Gen.KernelIdeal.Points
import proofs.«119155_j17222818857434_2_alg».proof.Proof.Gen.KernelIdeal.Frame
import proofs.«119155_j17222818857434_2_alg».proof.Proof.Gen.ReferenceIdeal
import proofs.«119155_j17222818857434_2_alg».proof.Proof.Gen.ReferenceIdeal.Run
import proofs.«119155_j17222818857434_2_alg».proof.Proof.Gen.ReferenceIdeal.Read
import proofs.«119155_j17222818857434_2_alg».proof.Proof.Gen.Pre_finite_inputs
import proofs.«119155_j17222818857434_2_alg».proof.Proof.KernelValue
import proofs.«119155_j17222818857434_2_alg».proof.Proof.ReferenceShots
import proofs.«119155_j17222818857434_2_alg».proof.Proof.FiniteSamples
import Idealize.ShloMosaic.Adequacy
import Idealize.ShloMosaic.Init

noncomputable section

namespace Cert.Proof

open Idealize.ShloMosaic Idealize.SL.Sem

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end at minus the sum over the shots of the centred correlation term of
    arguments that agree: the kernel's result through its statistics array and host tail, the reference's through
    its run read shot by shot, the samples finite by the precondition. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v34, ?_, ?_⟩
  · refine (θ_run Cert.KernelIdeal.defs _ _).mono (fun r h c => ⟨?_, ?_, ?_⟩) (Cert.KernelIdeal.Gen.run_main m ρ)
    · exact (h c).2 Cert.KernelIdeal.main_v34 (Pipeline.mem_restRefs_of Cert.KernelIdeal.main_v34 (by decide) (by decide))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨?_, (h c).2.1, (h c).2.2⟩)
      (Cert.ReferenceIdeal.Value.run (F := Ideal) m' ρ')
    have hfin := Cert.Misfit.Finite.real_of_pre _ _ (hpre c)
    rw [(h c).1, Cert.ReferenceIdeal.Read.val_main_v23_eq, Cert.Misfit.Ref.ref_result, (hagree c).1, (hagree c).2]
    exact (Cert.KernelIdeal.Body.kernel_value m c hfin.1 hfin.2).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
